-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x6 : Shape := ⟨2, ![50000, 6]⟩
abbrev S2x1600000 : Shape := ⟨2, ![2, 1600000]⟩
abbrev S6x64 : Shape := ⟨2, ![6, 64]⟩
abbrev S64 : Shape := ⟨1, ![64]⟩
abbrev S64x64 : Shape := ⟨2, ![64, 64]⟩
abbrev S_ : Shape := ⟨0, ![]⟩

class Facts : Prop where
  bcast_S_S50000x6 : S_.BroadcastsInDim S50000x6 (![] : Fin 0 → Fin S50000x6.rank)
  reducesTo_S50000x6_S_d0_1 : S50000x6.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S6x64 1) : IVec S_ 1 :=
  let main_c_5 : IVec S_ 1 := constantI S_ 1 1#1
  let main_v17 : IVec S_ 1 := (fun x v => Host.reduce IntOp.andi x v reducesTo_S6x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S50000x6 .f32) (main_arg1 : IVec S2x1600000 32) (main_arg2 : FVec F S6x64 .f32) (main_arg3 : FVec F S64 .f32) (main_arg4 : FVec F S6x64 .f32) (main_arg5 : FVec F S64x64 .f32) (main_arg6 : FVec F S64 .f32) (main_arg7 : FVec F S64x64 .f32) : IVec S_ 1 :=
  let main_v0 : FVec F S50000x6 .f32 := Host.absf main_arg0
  let main_cst : FVec F S_ .f32 := constant S_ .f32 0x7F800000#32
  let main_v1 : FVec F S50000x6 .f32 := broadcastInDim S50000x6 ![] bcast_S_S50000x6 main_cst
  let main_v2 : IVec S50000x6 1 := cmpf .olt main_v0 main_v1
  let main_c : IVec S_ 1 := constantI S_ 1 1#1
  let main_v3 : IVec S_ 1 := (fun x v => Host.reduce IntOp.andi x v reducesTo_S50000x6_S_d0_1 h_S_) main_v2 main_c
  let main_v4 : FVec F S6x64 .f32 := Host.absf main_arg2
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S6x64 .f32 := Host.absf main_arg4
  let main_cst_4 : FVec F S_ .f32 := constant S_ .f32 0x7F800000#32
  let main_v15 : FVec F S6x64 .f32 := broadcastInDim S6x64 ![] bcast_S_S6x64 main_cst_4
  let main_v16 : IVec S6x64 1 := cmpf .olt main_v14 main_v15
  fn_part1 (F := F) main_arg5 main_arg6 main_arg7 main_v13 main_v16
-- ==== Kernel.lean ====
abbrev S50000x6 : Shape := ⟨2, ![50000, 6]⟩
abbrev S2x1600000 : Shape := ⟨2, ![2, 1600000]⟩
abbrev S6x64 : Shape := ⟨2, ![6, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x6 : Shape := ⟨2, ![1600000, 6]⟩
abbrev S50000 : Shape := ⟨1, ![50000]⟩
abbrev S50000x1 : Shape := ⟨2, ![50000, 1]⟩
abbrev S50000x64 : Shape := ⟨2, ![50000, 64]⟩
abbrev S10000x6 : Shape := ⟨2, ![10000, 6]⟩
abbrev S10000x64 : Shape := ⟨2, ![10000, 64]⟩
abbrev S1x64 : Shape := ⟨2, ![1, 64]⟩
abbrev S1600000x64 : Shape := ⟨2, ![1600000, 64]⟩

abbrev nBuf : Space → Nat
  | .hbm => 64
  | .vmem => 18
  | .smem => 0
  | _ => 0

abbrev bufTy : (tb : Table) → Fin (tcTables nBuf tb) → BufTy
  | .hbm, ⟨0, _⟩ => ⟨S50000x6, .f32⟩
  | .hbm, ⟨1, _⟩ => ⟨S2x1600000, .i32⟩
  | .hbm, ⟨2, _⟩ => ⟨S6x64, .f32⟩
  | .hbm, ⟨3, _⟩ => ⟨S64, .f32⟩
  | .hbm, ⟨4, _⟩ => ⟨S6x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x6, .f32⟩
  | .hbm, ⟨21, _⟩ => ⟨S_, .f32⟩
  | .hbm, ⟨22, _⟩ => ⟨S50000x6, .f32⟩
  | .hbm, ⟨23, _⟩ => ⟨S1600000x1, .i32⟩
  | .hbm, ⟨24, _⟩ => ⟨S50000x6, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S50000, .f32⟩
  | .hbm, ⟨29, _⟩ => ⟨S1600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x6, .f32⟩
  | .hbm, ⟨36, _⟩ => ⟨S50000x6, .f32⟩
  | .hbm, ⟨37, _⟩ => ⟨S50000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S_, .f32⟩
  | .hbm, ⟨48, _⟩ => ⟨S50000x64, .f32⟩
  | .hbm, ⟨49, _⟩ => ⟨S1600000x1, .i32⟩
  | .hbm, ⟨50, _⟩ => ⟨S50000x64, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S50000, .f32⟩
  | .hbm, ⟨55, _⟩ => ⟨S1600000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x64, .f32⟩
  | .hbm, ⟨62, _⟩ => ⟨S50000x64, .f32⟩
  | .hbm, ⟨63, _⟩ => ⟨S50000x64, .f32⟩
  | .local _ .vmem, ⟨0, _⟩ => ⟨S10000x6, .f32⟩
  | .local _ .vmem, ⟨1, _⟩ => ⟨S10000x6, .f32⟩
  | .local _ .vmem, ⟨2, _⟩ => ⟨S10000x6, .f32⟩
  | .local _ .vmem, ⟨3, _⟩ => ⟨S10000x6, .f32⟩
  | .local _ .vmem, ⟨4, _⟩ => ⟨S6x64, .f32⟩
  | .local _ .vmem, ⟨5, _⟩ => ⟨S64, .f32⟩
  | .local _ .vmem, ⟨6, _⟩ => ⟨S6x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | _, _ => ⟨S50000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x6 : S_.BroadcastsInDim S50000x6 (![] : Fin 0 → Fin S50000x6.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x6_0_1 : S50000x1.BroadcastsInDim S50000x6 (![0, 1] : Fin 2 → Fin S50000x6.rank)
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  shapeCasts_S10000x6_S10000x6 : S10000x6.ShapeCasts S10000x6
  inb_S6x64_S6x64_0_0 : ∀ a, (![0, 0] : Fin 2 → Nat) a + S6x64.size a ≤ S6x64.size a
  h_S6x64 : 0 < S6x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  gather_S50000x6_S1600000x1_S1600000x6_1_0_n_n_0_1_16_wf : GatherDims.WF S50000x6 S1600000x1 S1600000x6 [1] [0] [] [0] [] 1 ![1, 6]
  scatter_S50000x6_S1600000x1_S1600000x6_1_0_0_1_wf : ScatterDims.WF S50000x6 S1600000x1 S1600000x6 [1] [0] [0] 1
  scatter_S50000_S1600000x1_S1600000_n_0_0_1_wf : ScatterDims.WF S50000 S1600000x1 S1600000 [] [0] [0] 1
  dot_S10000x6_S6x64_S10000x64_1_0_0_1_n_n_wf : DotDims.WF S10000x6 S6x64 S10000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S50000x6.size a
  hwx0_0 : ∀ i : grid0.Coords, EltTy.bits .f32 = 32 ∨ (Rect.block (s := S50000x6) S10000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x6.size a ≤ S50000x6.size a
  hwx0_1 : ∀ i : grid0.Coords, EltTy.bits .f32 = 32 ∨ (Rect.block (s := S50000x6) S10000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x64.size a ≤ S6x64.size a
  hwx0_2 : ∀ i : grid0.Coords, EltTy.bits .f32 = 32 ∨ (Rect.block (s := S6x64) S6x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x64.size a ≤ S6x64.size a
  hwx0_4 : ∀ i : grid0.Coords, EltTy.bits .f32 = 32 ∨ (Rect.block (s := S6x64) S6x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)

variable [Facts₀]

def gather_S50000x6_S1600000x1_S1600000x6_1_0_n_n_0_1_16 : GatherDims S50000x6 S1600000x1 S1600000x6 where
  offsetDims := [1]
  collapsedSliceDims := [0]
  operandBatchingDims := []
  startIndicesBatchingDims := []
  startIndexMap := [0]
  indexVectorDim := 1
  sliceSizes := ![1, 6]
  wf := gather_S50000x6_S1600000x1_S1600000x6_1_0_n_n_0_1_16_wf
def scatter_S50000x6_S1600000x1_S1600000x6_1_0_0_1 : ScatterDims S50000x6 S1600000x1 S1600000x6 where
  updateWindowDims := [1]
  insertedWindowDims := [0]
  scatterDimsToOperandDims := [0]
  indexVectorDim := 1
  wf := scatter_S50000x6_S1600000x1_S1600000x6_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S10000x6_S6x64_S10000x64_1_0_0_1_n_n : DotDims S10000x6 S6x64 S10000x64 where
  lhsContracting := [1]
  rhsContracting := [0]
  lhsNonContracting := [0]
  rhsNonContracting := [1]
  lhsBatch := []
  rhsBatch := []
  wf := dot_S10000x6_S6x64_S10000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x6 : Shape := ⟨2, ![50000, 6]⟩
abbrev S2x1600000 : Shape := ⟨2, ![2, 1600000]⟩
abbrev S6x64 : Shape := ⟨2, ![6, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x6 : Shape := ⟨2, ![1600000, 6]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S1600000x64 : Shape := ⟨2, ![1600000, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x6, .f32⟩
  | .hbm, ⟨1, _⟩ => ⟨S2x1600000, .i32⟩
  | .hbm, ⟨2, _⟩ => ⟨S6x64, .f32⟩
  | .hbm, ⟨3, _⟩ => ⟨S64, .f32⟩
  | .hbm, ⟨4, _⟩ => ⟨S6x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x6, .f32⟩
  | .hbm, ⟨21, _⟩ => ⟨S_, .f32⟩
  | .hbm, ⟨22, _⟩ => ⟨S50000x6, .f32⟩
  | .hbm, ⟨23, _⟩ => ⟨S1600000x1, .i32⟩
  | .hbm, ⟨24, _⟩ => ⟨S50000x6, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S50000, .f32⟩
  | .hbm, ⟨29, _⟩ => ⟨S1600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x6, .f32⟩
  | .hbm, ⟨36, _⟩ => ⟨S50000x6, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S50000x64, .f32⟩
  | .hbm, ⟨57, _⟩ => ⟨S1600000x1, .i32⟩
  | .hbm, ⟨58, _⟩ => ⟨S50000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S50000, .f32⟩
  | .hbm, ⟨63, _⟩ => ⟨S1600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x6 : S_.BroadcastsInDim S50000x6 (![] : Fin 0 → Fin S50000x6.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x6_0_1 : S50000x1.BroadcastsInDim S50000x6 (![0, 1] : Fin 2 → Fin S50000x6.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  gather_S50000x6_S1600000x1_S1600000x6_1_0_n_n_0_1_16_wf : GatherDims.WF S50000x6 S1600000x1 S1600000x6 [1] [0] [] [0] [] 1 ![1, 6]
  scatter_S50000x6_S1600000x1_S1600000x6_1_0_0_1_wf : ScatterDims.WF S50000x6 S1600000x1 S1600000x6 [1] [0] [0] 1
  scatter_S50000_S1600000x1_S1600000_n_0_0_1_wf : ScatterDims.WF S50000 S1600000x1 S1600000 [] [0] [0] 1
  dot_S50000x6_S6x64_S50000x64_1_0_0_1_n_n_wf : DotDims.WF S50000x6 S6x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []

variable [Facts₀]

def gather_S50000x6_S1600000x1_S1600000x6_1_0_n_n_0_1_16 : GatherDims S50000x6 S1600000x1 S1600000x6 where
  offsetDims := [1]
  collapsedSliceDims := [0]
  operandBatchingDims := []
  startIndicesBatchingDims := []
  startIndexMap := [0]
  indexVectorDim := 1
  sliceSizes := ![1, 6]
  wf := gather_S50000x6_S1600000x1_S1600000x6_1_0_n_n_0_1_16_wf
def scatter_S50000x6_S1600000x1_S1600000x6_1_0_0_1 : ScatterDims S50000x6 S1600000x1 S1600000x6 where
  updateWindowDims := [1]
  insertedWindowDims := [0]
  scatterDimsToOperandDims := [0]
  indexVectorDim := 1
  wf := scatter_S50000x6_S1600000x1_S1600000x6_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x6_S6x64_S50000x64_1_0_0_1_n_n : DotDims S50000x6 S6x64 S50000x64 where
  lhsContracting := [1]
  rhsContracting := [0]
  lhsNonContracting := [0]
  rhsNonContracting := [1]
  lhsBatch := []
  rhsBatch := []
  wf := dot_S50000x6_S6x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  One GraphSAGE layer's dense part, entry by entry, on the extended reals.

  A layer takes the node features `z` (one row per node), the neighbourhood means `mean` (same shape), two weight
  matrices `wl`, `wr` and a bias row `b`, and gives node `r`, output feature `j` the value

      ((∑ₖ mean[r, k] · wl[k, j]) + b[j]) + ∑ₖ z[r, k] · wr[k, j],

  the two sums over the input features and the three terms added in exactly this order.  Layer 1 (6 input features)
  is followed by the maximum with zero; layer 2 (64 input features) is not.  Nothing here is distributed or
  cancelled, so the formulas mean the same at every extended real, infinite entries included.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Entry `(r, j)` of layer 1 before the activation: the means' row against `wl`, plus the bias, plus the node's own
    row against `wr`; six input features. -/
def pre1 (x mean : FVec Ideal ⟨2, ![50000, 6]⟩ .f32) (wl : FVec Ideal ⟨2, ![6, 64]⟩ .f32) (b : FVec Ideal ⟨1, ![64]⟩ .f32)
    (wr : FVec Ideal ⟨2, ![6, 64]⟩ .f32) (r : Fin 50000) (j : Fin 64) : EReal :=
  ((∑ k : Fin 6, mean (ix2 r k) * wl (ix2 k j)) + b (ix1 j)) + ∑ k : Fin 6, x (ix2 r k) * wr (ix2 k j)

/-- Layer 1 as one array: the maximum of `pre1` with the zero word's value, at every node and feature. -/
def layer1 (x mean : FVec Ideal ⟨2, ![50000, 6]⟩ .f32) (wl : FVec Ideal ⟨2, ![6, 64]⟩ .f32) (b : FVec Ideal ⟨1, ![64]⟩ .f32)
    (wr : FVec Ideal ⟨2, ![6, 64]⟩ .f32) : FVec Ideal ⟨2, ![50000, 64]⟩ .f32 :=
  fun i => max (pre1 x mean wl b wr (i 0) (i 1)) (Ideal.ofBits .f32 0x00000000#32)

theorem layer1_ix2 (x mean : FVec Ideal ⟨2, ![50000, 6]⟩ .f32) (wl : FVec Ideal ⟨2, ![6, 64]⟩ .f32) (b : FVec Ideal ⟨1, ![64]⟩ .f32)
    (wr : FVec Ideal ⟨2, ![6, 64]⟩ .f32) (r : Fin 50000) (j : Fin 64) :
    layer1 x mean wl b wr (ix2 r j) = max (pre1 x mean wl b wr r j) (Ideal.ofBits .f32 0x00000000#32) := rfl

/-- Entry `(r, j)` of layer 2: the same three terms over sixty-four input features, no activation. -/
def pre2 (z mean : FVec Ideal ⟨2, ![50000, 64]⟩ .f32) (wl : FVec Ideal ⟨2, ![64, 64]⟩ .f32) (b : FVec Ideal ⟨1, ![64]⟩ .f32)
    (wr : FVec Ideal ⟨2, ![64, 64]⟩ .f32) (r : Fin 50000) (j : Fin 64) : EReal :=
  ((∑ k : Fin 64, mean (ix2 r k) * wl (ix2 k j)) + b (ix1 j)) + ∑ k : Fin 64, z (ix2 r k) * wr (ix2 k j)

/-- Layer 2 as one array. -/
def layer2 (z mean : FVec Ideal ⟨2, ![50000, 64]⟩ .f32) (wl : FVec Ideal ⟨2, ![64, 64]⟩ .f32) (b : FVec Ideal ⟨1, ![64]⟩ .f32)
    (wr : FVec Ideal ⟨2, ![64, 64]⟩ .f32) : FVec Ideal ⟨2, ![50000, 64]⟩ .f32 :=
  fun i => pre2 z mean wl b wr (i 0) (i 1)

theorem layer2_ix2 (z mean : FVec Ideal ⟨2, ![50000, 64]⟩ .f32) (wl : FVec Ideal ⟨2, ![64, 64]⟩ .f32) (b : FVec Ideal ⟨1, ![64]⟩ .f32)
    (wr : FVec Ideal ⟨2, ![64, 64]⟩ .f32) (r : Fin 50000) (j : Fin 64) :
    layer2 z mean wl b wr (ix2 r j) = pre2 z mean wl b wr r j := rfl

end Cert.Sage

end
-- ==== Proof.KernelRun.lean ====
/-
  The idealized kernel's run with its result named.

  @main is four segments: the host operations that build the first neighbourhood mean, the first dense layer (a
  grid of five row blocks), the host operations that build the second mean from the first layer's output, and the
  second dense layer.  The buffer contents at the boundaries between the segments are a fold from the launch
  memory; at the return every unscoped buffer holds the last boundary's contents.  Read at the argument buffers
  that gives the frame; read, in addition, at the result buffer it says what the program returns: the last
  boundary's contents there, which the second layer's write-backs leave.
-/
import proofs.«143946_j26431228739933_1_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the eight argument arrays as launched. -/
theorem run_named : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.KernelRun

end
-- ==== Proof.KernelHost.lean ====
/-
  The kernel's two stretches of host operations, read over ANY buffer contents `W` they are entered from.

  Before the first dense layer the host cuts the edge list into its row of source nodes and its row of destination
  nodes, gathers the source nodes' feature rows, adds them up per destination node, counts each destination's
  edges, and divides by the count (at least one): the first neighbourhood mean.  Between the two layers it does
  the same with the first layer's output in place of the input features: the second neighbourhood mean.  The
  reference runs the very same operations, so each stretch's result is the reference's own stage function of the
  buffers the stretch reads — the gather / scatter-add chain is carried as ONE function of its operands and is
  never opened.  A buffer a stretch does not write keeps its contents.
-/
import proofs.«143946_j26431228739933_1_alg».proof.Proof.Gen.KernelIdeal.Launch
import proofs.«143946_j26431228739933_1_alg».proof.Proof.Gen.ReferenceIdeal.Read
import Idealize.ShloMosaic.Lib.StableHlo.Run

noncomputable section

namespace Cert.Sage.Host

open Idealize.ShloMosaic Idealize.ShloMosaic.TcCoe Idealize.SL.Sem Idealize.ShloMosaic.StableHlo

/-! ## The second neighbourhood mean as a function of the node features and the two endpoint rows -/

section Reference

open Cert.ReferenceIdeal Cert.ReferenceIdeal.Gen Cert.ReferenceIdeal.Read

/-- The mean over each node's incoming edges of the rows of `z` at the edges' source nodes: `src`, `dst` the edge
    list's two rows; a negative node number counts from the end; a node with no incoming edge divides by one. -/
def mean2 (z : FVec Ideal S50000x64 .f32) (src dst : IVec S1600000 32) : FVec Ideal S50000x64 .f32 :=
  Host.divf (F := Ideal)
    (Host.scatterAdd (F := Ideal) scatter_S50000x64_S1600000x1_S1600000x64_1_0_0_1 (val_main_v37 (F := Ideal))
      (broadcastInDim S1600000x1 ![0] bcast_S1600000_S1600000x1_0 dst)
      (Host.gather gather_S50000x64_S1600000x1_S1600000x64_1_0_n_n_0_1_164 z
        (broadcastInDim S1600000x1 ![0] bcast_S1600000_S1600000x1_0
          (select (cmpi .slt src (val_main_v30 (F := Ideal))) (addi src (val_main_v32 (F := Ideal))) src))))
    (broadcastInDim S50000x64 ![0, 1] bcast_S50000x1_S50000x64_0_1
      (broadcastInDim S50000x1 ![0] bcast_S50000_S50000x1_0
        (maximumf (F := Ideal)
          (Host.scatterAdd (F := Ideal) scatter_S50000_S1600000x1_S1600000_n_0_0_1 (val_main_v41 (F := Ideal))
            (broadcastInDim S1600000x1 ![0] bcast_S1600000_S1600000x1_0 dst) (val_main_v40 (F := Ideal)))
          (val_main_v44 (F := Ideal)))))

/-- The reference's second mean is `mean2` of its first layer's output and the edge list's two rows. -/
theorem v48_mean2 (x0 : (⟨S50000x6, .f32⟩ : BufTy).Contents (Elt Ideal)) (x1 : (⟨S2x1600000, .i32⟩ : BufTy).Contents (Elt Ideal)) (x2 : (⟨S6x64, .f32⟩ : BufTy).Contents (Elt Ideal))
    (x3 : (⟨S64, .f32⟩ : BufTy).Contents (Elt Ideal)) (x4 : (⟨S6x64, .f32⟩ : BufTy).Contents (Elt Ideal)) :
    val_main_v48 (F := Ideal) x0 x1 x2 x3 x4
      = mean2 (val_main_v29 (F := Ideal) x0 x1 x2 x3 x4) (val_main_v1 (F := Ideal) x1) (val_main_v3 (F := Ideal) x1) := by
  unfold val_main_v48 val_main_v39 val_main_v36 val_main_v38 val_main_v35 val_main_v34 val_main_v33 val_main_v31
    val_main_v47 val_main_v46 val_main_v45 val_main_v43 val_main_v42 mean2
  rfl

end Reference

/-! ## The kernel's stretches -/

section Kernel

open Cert.KernelIdeal Cert.KernelIdeal.Gen
open Cert.ReferenceIdeal.Read (val_main_v1 val_main_v3 val_main_v22)

variable (W : Valuation τ sig (Elt Ideal))

/-- The first stretch leaves the first neighbourhood mean of the input features in the buffer the first layer's
    second window reads. -/
theorem host0_mean : after (hostOps0 (F := Ideal)) W (Proc.devRef .tc main_v22)
    = val_main_v22 (F := Ideal) (W (Proc.devRef .tc main_arg0)) (W (Proc.devRef .tc main_arg1)) := by
  after_results_simp
  unfold val_main_v22 Cert.ReferenceIdeal.Read.val_main_v13 Cert.ReferenceIdeal.Read.val_main_v21
    Cert.ReferenceIdeal.Read.val_main_v20 Cert.ReferenceIdeal.Read.val_main_v19 Cert.ReferenceIdeal.Read.val_main_v17
    Cert.ReferenceIdeal.Read.val_main_v18 Cert.ReferenceIdeal.Read.val_main_cst_3 Cert.ReferenceIdeal.Read.val_main_v16
    Cert.ReferenceIdeal.Read.val_main_v15 Cert.ReferenceIdeal.Read.val_main_cst_2 Cert.ReferenceIdeal.Read.val_main_v14
    Cert.ReferenceIdeal.Read.val_main_cst_1 Cert.ReferenceIdeal.Read.val_main_v12 Cert.ReferenceIdeal.Read.val_main_v11
    Cert.ReferenceIdeal.Read.val_main_cst Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_c_0 Cert.ReferenceIdeal.Read.val_main_v5 Cert.ReferenceIdeal.Read.val_main_v4
    Cert.ReferenceIdeal.Read.val_main_c val_main_v3 Cert.ReferenceIdeal.Read.val_main_v2 val_main_v1
    Cert.ReferenceIdeal.Read.val_main_v0
  rfl

/-- It also leaves the edge list's row of source nodes … -/
theorem host0_src : after (hostOps0 (F := Ideal)) W (Proc.devRef .tc main_v1)
    = val_main_v1 (F := Ideal) (W (Proc.devRef .tc main_arg1)) := by
  after_results_simp
  unfold val_main_v1 Cert.ReferenceIdeal.Read.val_main_v0
  rfl

/-- … and its row of destination nodes, which the second stretch reads again. -/
theorem host0_dst : after (hostOps0 (F := Ideal)) W (Proc.devRef .tc main_v3)
    = val_main_v3 (F := Ideal) (W (Proc.devRef .tc main_arg1)) := by
  after_results_simp
  unfold val_main_v3 Cert.ReferenceIdeal.Read.val_main_v2
  rfl

/-- The first stretch writes none of the arguments. -/
theorem host0_arg0 : after (hostOps0 (F := Ideal)) W (Proc.devRef .tc main_arg0) = W (Proc.devRef .tc main_arg0) := by after_results_simp
theorem host0_arg1 : after (hostOps0 (F := Ideal)) W (Proc.devRef .tc main_arg1) = W (Proc.devRef .tc main_arg1) := by after_results_simp
theorem host0_arg2 : after (hostOps0 (F := Ideal)) W (Proc.devRef .tc main_arg2) = W (Proc.devRef .tc main_arg2) := by after_results_simp
theorem host0_arg3 : after (hostOps0 (F := Ideal)) W (Proc.devRef .tc main_arg3) = W (Proc.devRef .tc main_arg3) := by after_results_simp
theorem host0_arg4 : after (hostOps0 (F := Ideal)) W (Proc.devRef .tc main_arg4) = W (Proc.devRef .tc main_arg4) := by after_results_simp
theorem host0_arg5 : after (hostOps0 (F := Ideal)) W (Proc.devRef .tc main_arg5) = W (Proc.devRef .tc main_arg5) := by after_results_simp
theorem host0_arg6 : after (hostOps0 (F := Ideal)) W (Proc.devRef .tc main_arg6) = W (Proc.devRef .tc main_arg6) := by after_results_simp
theorem host0_arg7 : after (hostOps0 (F := Ideal)) W (Proc.devRef .tc main_arg7) = W (Proc.devRef .tc main_arg7) := by after_results_simp

/-- The second stretch leaves the second neighbourhood mean — of whatever the first layer's output buffer holds —
    in the buffer the second layer's second window reads. -/
theorem host1_mean : after (hostOps1 (F := Ideal)) W (Proc.devRef .tc main_v42)
    = mean2 (W (Proc.devRef .tc main_v23)) (W (Proc.devRef .tc main_v1)) (W (Proc.devRef .tc main_v3)) := by
  after_results_simp
  unfold mean2 Cert.ReferenceIdeal.Read.val_main_v37 Cert.ReferenceIdeal.Read.val_main_cst_6 Cert.ReferenceIdeal.Read.val_main_v30
    Cert.ReferenceIdeal.Read.val_main_c_4 Cert.ReferenceIdeal.Read.val_main_v32 Cert.ReferenceIdeal.Read.val_main_c_5
    Cert.ReferenceIdeal.Read.val_main_v41 Cert.ReferenceIdeal.Read.val_main_cst_8 Cert.ReferenceIdeal.Read.val_main_v40
    Cert.ReferenceIdeal.Read.val_main_cst_7 Cert.ReferenceIdeal.Read.val_main_v44 Cert.ReferenceIdeal.Read.val_main_cst_9
  rfl

/-- The second stretch writes neither the first layer's output nor the second layer's parameters. -/
theorem host1_z : after (hostOps1 (F := Ideal)) W (Proc.devRef .tc main_v23) = W (Proc.devRef .tc main_v23) := by after_results_simp
theorem host1_arg5 : after (hostOps1 (F := Ideal)) W (Proc.devRef .tc main_arg5) = W (Proc.devRef .tc main_arg5) := by after_results_simp
theorem host1_arg6 : after (hostOps1 (F := Ideal)) W (Proc.devRef .tc main_arg6) = W (Proc.devRef .tc main_arg6) := by after_results_simp
theorem host1_arg7 : after (hostOps1 (F := Ideal)) W (Proc.devRef .tc main_arg7) = W (Proc.devRef .tc main_arg7) := by after_results_simp

end Kernel

end Cert.Sage.Host

end
-- ==== Proof.KernelValue.lean ====
/-
  What the idealized kernel returns, as one function of the launch memory.

  Walk the result buffer back through @main's four segments.  The second dense layer leaves, in its output
  array, `layer2` of the arrays its windows read when it is entered: the first layer's output, the second
  neighbourhood mean, and the second layer's weights and bias.  The host operations between the layers write
  only the second mean — `mean2` of the first layer's output and the edge list's two rows, which the first stretch
  of host operations cut out — and leave the first layer's output and the parameters alone.  The first dense layer
  leaves `layer1` of the input features, the first neighbourhood mean and the first layer's parameters; the first
  stretch writes the first mean and the two rows, and no argument.  At the launch every buffer holds the launch
  memory.  Composing the four steps, the result is

      layer2 Z (mean2 Z src dst) W₂ˡ b₂ W₂ʳ      with  Z = layer1 x (mean₁ x e) W₁ˡ b₁ W₁ʳ,

  `src`, `dst` the two rows of the edge list `e`.  The two facts about the layers' blocks are taken as hypotheses
  here (they are proved, for any entry contents, from the kernels' bodies) so that this walk is independent of them.
-/
import proofs.«143946_j26431228739933_1_alg».proof.Proof.Gen.KernelIdeal.Frame
import proofs.«143946_j26431228739933_1_alg».proof.Proof.KernelHost
import proofs.«143946_j26431228739933_1_alg».proof.Proof.Spec

noncomputable section

namespace Cert.Sage.KernelValue

open Cert.KernelIdeal Cert.KernelIdeal.Gen
open Idealize.ShloMosaic Idealize.ShloMosaic.TcCoe Idealize.SL.Sem
open Cert.ReferenceIdeal.Read (val_main_v1 val_main_v3 val_main_v22)
open Cert.Sage.Host

variable (m : (ℓ : Loc nD τ sig) → Buf (Elt Ideal) ℓ) (ρ : Dev nD → PrngReg)

/-- The first layer's output as a function of the launch memory. -/
def z1 (c : Dev nD) : FVec Ideal ⟨2, ![50000, 64]⟩ .f32 :=
  Cert.Sage.layer1 (m ((c.tc : Thread nD τ).loc main_arg0))
    (val_main_v22 (F := Ideal) (m ((c.tc : Thread nD τ).loc main_arg0)) (m ((c.tc : Thread nD τ).loc main_arg1)))
    (m ((c.tc : Thread nD τ).loc main_arg2)) (m ((c.tc : Thread nD τ).loc main_arg3)) (m ((c.tc : Thread nD τ).loc main_arg4))

/-- What the kernel returns as a function of the launch memory. -/
def out (c : Dev nD) : FVec Ideal ⟨2, ![50000, 64]⟩ .f32 :=
  Cert.Sage.layer2 (z1 m c)
    (mean2 (z1 m c) (val_main_v1 (F := Ideal) (m ((c.tc : Thread nD τ).loc main_arg1))) (val_main_v3 (F := Ideal) (m ((c.tc : Thread nD τ).loc main_arg1))))
    (m ((c.tc : Thread nD τ).loc main_arg5)) (m ((c.tc : Thread nD τ).loc main_arg6)) (m ((c.tc : Thread nD τ).loc main_arg7))

section Walk

variable
  (h0 : ∀ (V : (c : Dev nD) → (b : Ref sig .tc) → Buf (Elt Ideal) ((c : Thread nD τ).loc b)) (c : Dev nD),
    (dat0 (F := Ideal) V c).arrAt 5 cfg0.N
      = Cert.Sage.layer1 (V c main_arg0) (V c main_v22) (V c main_arg2) (V c main_arg3) (V c main_arg4))
  (h1 : ∀ (V : (c : Dev nD) → (b : Ref sig .tc) → Buf (Elt Ideal) ((c : Thread nD τ).loc b)) (c : Dev nD),
    (dat1 (F := Ideal) V c).arrAt 5 cfg1.N
      = Cert.Sage.layer2 (V c main_v23) (V c main_v42) (V c main_arg5) (V c main_arg6) (V c main_arg7))

include h0 in
/-- At the first layer's exit its output array holds `z1`. -/
theorem exit0_z (c : Dev nD) : W2 (F := Ideal) m ρ c (Proc.devRef .tc main_v23) = z1 m c := by
  have e0 : V1 (F := Ideal) m ρ c main_arg0 = m ((c.tc : Thread nD τ).loc main_arg0) := host0_arg0 (W0 m ρ c)
  have e1 : V1 (F := Ideal) m ρ c main_v22
      = val_main_v22 (F := Ideal) (m ((c.tc : Thread nD τ).loc main_arg0)) (m ((c.tc : Thread nD τ).loc main_arg1)) :=
    host0_mean (W0 m ρ c)
  have e2 : V1 (F := Ideal) m ρ c main_arg2 = m ((c.tc : Thread nD τ).loc main_arg2) := host0_arg2 (W0 m ρ c)
  have e3 : V1 (F := Ideal) m ρ c main_arg3 = m ((c.tc : Thread nD τ).loc main_arg3) := host0_arg3 (W0 m ρ c)
  have e4 : V1 (F := Ideal) m ρ c main_arg4 = m ((c.tc : Thread nD τ).loc main_arg4) := host0_arg4 (W0 m ρ c)
  refine (W2_arr m ρ c 5).trans ?_
  rw [h0 (V1 m ρ) c, e0, e1, e2, e3, e4]
  rfl

/-- The edge list's two rows, cut out by the first stretch, pass the first layer untouched. -/
theorem exit0_src (c : Dev nD) : W2 (F := Ideal) m ρ c (Proc.devRef .tc main_v1)
    = val_main_v1 (F := Ideal) (m ((c.tc : Thread nD τ).loc main_arg1)) :=
  (W2_of_ne m ρ c main_v1 (by decide)).trans (host0_src (W0 m ρ c))
theorem exit0_dst (c : Dev nD) : W2 (F := Ideal) m ρ c (Proc.devRef .tc main_v3)
    = val_main_v3 (F := Ideal) (m ((c.tc : Thread nD τ).loc main_arg1)) :=
  (W2_of_ne m ρ c main_v3 (by decide)).trans (host0_dst (W0 m ρ c))
/-- So do the second layer's parameters. -/
theorem exit0_arg5 (c : Dev nD) : W2 (F := Ideal) m ρ c (Proc.devRef .tc main_arg5) = m ((c.tc : Thread nD τ).loc main_arg5) :=
  (W2_of_ne m ρ c main_arg5 (by decide)).trans (host0_arg5 (W0 m ρ c))
theorem exit0_arg6 (c : Dev nD) : W2 (F := Ideal) m ρ c (Proc.devRef .tc main_arg6) = m ((c.tc : Thread nD τ).loc main_arg6) :=
  (W2_of_ne m ρ c main_arg6 (by decide)).trans (host0_arg6 (W0 m ρ c))
theorem exit0_arg7 (c : Dev nD) : W2 (F := Ideal) m ρ c (Proc.devRef .tc main_arg7) = m ((c.tc : Thread nD τ).loc main_arg7) :=
  (W2_of_ne m ρ c main_arg7 (by decide)).trans (host0_arg7 (W0 m ρ c))

include h0 h1 in
/-- At the return the result buffer holds `out`. -/
theorem result (c : Dev nD) : W4 (F := Ideal) m ρ c (Proc.devRef .tc main_v43) = out m c := by
  have ez : V3 (F := Ideal) m ρ c main_v23 = z1 m c := (host1_z (W2 m ρ c)).trans (exit0_z m ρ h0 c)
  have em : V3 (F := Ideal) m ρ c main_v42
      = mean2 (z1 m c) (val_main_v1 (F := Ideal) (m ((c.tc : Thread nD τ).loc main_arg1))) (val_main_v3 (F := Ideal) (m ((c.tc : Thread nD τ).loc main_arg1))) := by
    refine (host1_mean (W2 m ρ c)).trans ?_
    rw [exit0_z m ρ h0 c, exit0_src m ρ c, exit0_dst m ρ c]
  have e5 : V3 (F := Ideal) m ρ c main_arg5 = m ((c.tc : Thread nD τ).loc main_arg5) := (host1_arg5 (W2 m ρ c)).trans (exit0_arg5 m ρ c)
  have e6 : V3 (F := Ideal) m ρ c main_arg6 = m ((c.tc : Thread nD τ).loc main_arg6) := (host1_arg6 (W2 m ρ c)).trans (exit0_arg6 m ρ c)
  have e7 : V3 (F := Ideal) m ρ c main_arg7 = m ((c.tc : Thread nD τ).loc main_arg7) := (host1_arg7 (W2 m ρ c)).trans (exit0_arg7 m ρ c)
  refine (W4_arr m ρ c 5).trans ?_
  rw [h1 (V3 m ρ) c, ez, em, e5, e6, e7]
  rfl

end Walk

end Cert.Sage.KernelValue

end
-- ==== Proof.Region0.lean ====
/-
  The first layer's region, from its five row blocks to the whole array.

  The region walks the 50000 nodes in five blocks of 10000 rows.  At block `t` its body holds rows
  `t * 10000 … t * 10000 + 9999` of the node features and of the neighbourhood means, and the two weight matrices and
  the bias row whole; it multiplies the means' block by `wl` and the features' block by `wr` (each product accumulated
  into zero), adds the bias row to the first product, adds the second product, and takes the maximum with zero.  On
  the extended reals the narrowing casts in front of the products are the identity, so entry (p, q) of the body's
  result is

      max (((∑ₖ mean[r, k] · wl[k, q]) + b[q]) + ∑ₖ x[r, k] · wr[k, q]) 0,      r = t * 10000 + p,

  which is layer 1's entry (r, q) term for term.  Block `t` of the output is written at rows `t * 10000 + p`, and every
  row `r` lies in block `r / 10000`, so after the five points the output array is layer 1 of the arrays the region
  found.
-/
import proofs.«143946_j26431228739933_1_alg».proof.Proof.Gen.KernelIdeal.Frame
import proofs.«143946_j26431228739933_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.Sage.KernelBlocks
open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

namespace Layer1

/-! ## The block product at an entry

The body multiplies a [10000,6] block by a [6,64] matrix, the left operand's axis 1 contracted against the right
operand's axis 0.  The four facts below read the two operand indices of output entry `i` at contraction position
`q`, coordinate by coordinate; the lemma after them re-indexes the contraction by `Fin 6`. -/

theorem lhs_row (i : S10000x64.Idx) (q : dot_S10000x6_S6x64_S10000x64_1_0_0_1_n_n.contr.Idx) :
    (dot_S10000x6_S6x64_S10000x64_1_0_0_1_n_n.lhsIdx i q 0).val = (i 0).val := by
  unfold DotDims.lhsIdx
  rw [dif_neg (show ¬(0 : Fin S10000x6.rank) ∈ dot_S10000x6_S6x64_S10000x64_1_0_0_1_n_n.lhsBatch by decide), dif_pos (show (0 : Fin S10000x6.rank) ∈ dot_S10000x6_S6x64_S10000x64_1_0_0_1_n_n.lhsNonContracting by decide)]
  rfl
theorem lhs_col (i : S10000x64.Idx) (q : dot_S10000x6_S6x64_S10000x64_1_0_0_1_n_n.contr.Idx) :
    (dot_S10000x6_S6x64_S10000x64_1_0_0_1_n_n.lhsIdx i q 1).val = (q ⟨0, by decide⟩).val :=
  dot_S10000x6_S6x64_S10000x64_1_0_0_1_n_n.lhsIdx_val_of_single rfl i q
theorem rhs_row (i : S10000x64.Idx) (q : dot_S10000x6_S6x64_S10000x64_1_0_0_1_n_n.contr.Idx) :
    (dot_S10000x6_S6x64_S10000x64_1_0_0_1_n_n.rhsIdx i q 0).val = (q ⟨0, by decide⟩).val :=
  dot_S10000x6_S6x64_S10000x64_1_0_0_1_n_n.rhsIdx_val_of_single rfl i q
theorem rhs_col (i : S10000x64.Idx) (q : dot_S10000x6_S6x64_S10000x64_1_0_0_1_n_n.contr.Idx) :
    (dot_S10000x6_S6x64_S10000x64_1_0_0_1_n_n.rhsIdx i q 1).val = (i 1).val := by
  unfold DotDims.rhsIdx
  rw [dif_neg (show ¬(1 : Fin S6x64.rank) ∈ dot_S10000x6_S6x64_S10000x64_1_0_0_1_n_n.rhsBatch by decide), dif_pos (show (1 : Fin S6x64.rank) ∈ dot_S10000x6_S6x64_S10000x64_1_0_0_1_n_n.rhsNonContracting by decide)]
  rfl

/-- The product of a [10000,6] block and a [6,64] matrix, accumulated into zero, at entry (p, q): row p of the
    left operand against column q of the right, summed over the six shared positions. -/
theorem prod_apply (l : FVec Ideal S10000x6 .bf16) (r : FVec Ideal S6x64 .bf16) (p : Fin 10000) (q : Fin 64) :
    matmul dot_S10000x6_S6x64_S10000x64_1_0_0_1_n_n none l r (constant S10000x64 .f32 0x00000000#32) (ix2 p q)
      = ∑ k : Fin 6, l (ix2 p k) * r (ix2 k q) := by
  simp only [matmul]
  rw [Ideal.matmul_constant_zero_apply, ← Equiv.sum_comp (ValueIdx.contrEquiv1 dot_S10000x6_S6x64_S10000x64_1_0_0_1_n_n 6 rfl rfl).symm]
  refine Finset.sum_congr rfl fun k _ => ?_
  have hk := ValueIdx.contrEquiv1_symm_val dot_S10000x6_S6x64_S10000x64_1_0_0_1_n_n 6 rfl rfl k
  have el : dot_S10000x6_S6x64_S10000x64_1_0_0_1_n_n.lhsIdx (ix2 p q) ((ValueIdx.contrEquiv1 dot_S10000x6_S6x64_S10000x64_1_0_0_1_n_n 6 rfl rfl).symm k) = ix2 p k := funext fun a => Fin.ext (by
    match a with
    | ⟨0, _⟩ => exact lhs_row _ _
    | ⟨1, _⟩ => exact (lhs_col _ _).trans hk)
  have er : dot_S10000x6_S6x64_S10000x64_1_0_0_1_n_n.rhsIdx (ix2 p q) ((ValueIdx.contrEquiv1 dot_S10000x6_S6x64_S10000x64_1_0_0_1_n_n 6 rfl rfl).symm k) = ix2 k q := funext fun a => Fin.ext (by
    match a with
    | ⟨0, _⟩ => exact (rhs_row _ _).trans hk
    | ⟨1, _⟩ => exact rhs_col _ _)
  rw [el, er]

/-! ## The body's arithmetic at an entry -/

/-- What the body computes from its five loaded blocks, at entry (p, q) of the [10000,64] block: the means' row
    against `wl`, plus the bias at q, plus the node's own row against `wr`, then the maximum with the zero word's
    value.  The narrowing casts are the identity on the extended reals, the bias row is read at q whatever the
    row, and both products accumulate into zero. -/
theorem pay_apply (v0 v2 : Vec Ideal S10000x6 .f32) (v5 v7 : Vec Ideal S6x64 .f32) (v10 : Vec Ideal S64 .f32) (p : Fin 10000) (q : Fin 64) :
    k0_pay1 (F := Ideal) v0 v2 v5 v7 v10 (ix2 p q)
      = max (((∑ k : Fin 6, v2 (ix2 p k) * v5 (ix2 k q)) + v10 (ix1 q)) + ∑ k : Fin 6, v0 (ix2 p k) * v7 (ix2 k q))
          (Ideal.ofBits .f32 0x00000000#32) := by
  unfold k0_pay1
  refine congrArg₂ max (congrArg₂ (· + ·) (congrArg₂ (· + ·) ?_ ?_) ?_) rfl
  · refine (prod_apply _ _ p q).trans ?_
    rw [shapeCast_self]
    rfl
  · refine (broadcastTo_1b_ab_apply _ broadcasts_S1x64_S10000x64 p q).trans ?_
    exact shapeCast_a_1a_apply v10 shapeCasts_S64_S1x64 0 q
  · exact prod_apply _ _ p q

/-- The body's result against layer 1: when the two row blocks hold, at their row `p`, row `r` of the node features
    and of the means, and the three parameter blocks hold the parameters, the body's entry (p, q) is layer 1's
    entry (r, q) — the same three terms added in the same order, then the same maximum. -/
theorem body_eq_layer1 (X M : FVec Ideal ⟨2, ![50000, 6]⟩ .f32) (Wl : FVec Ideal ⟨2, ![6, 64]⟩ .f32) (B : FVec Ideal ⟨1, ![64]⟩ .f32)
    (Wr : FVec Ideal ⟨2, ![6, 64]⟩ .f32)
    (x0 x1 : Vec Ideal S10000x6 .f32) (x2 : Vec Ideal S6x64 .f32) (x3 : Vec Ideal S64 .f32) (x4 : Vec Ideal S6x64 .f32)
    (p : Fin 10000) (q : Fin 64) (r : Fin 50000)
    (h0 : ∀ k : Fin 6, x0 (ix2 p k) = X (ix2 r k))
    (h1 : ∀ k : Fin 6, x1 (ix2 p k) = M (ix2 r k))
    (h2 : ∀ k : Fin 6, x2 (ix2 k q) = Wl (ix2 k q))
    (h3 : x3 (ix1 q) = B (ix1 q))
    (h4 : ∀ k : Fin 6, x4 (ix2 k q) = Wr (ix2 k q)) :
    k0_pay1 (F := Ideal) x0 x1 x2 x4 x3 (ix2 p q) = Cert.Sage.layer1 X M Wl B Wr (ix2 r q) := by
  rw [pay_apply, Cert.Sage.layer1_ix2]
  unfold Cert.Sage.pre1
  simp only [h0, h1, h2, h3, h4]

/-! ## From blocks to the array -/

theorem zero_off2 : (![0, 0] : Fin 2 → Nat) = fun _ => 0 := funext fun a => by fin_cases a <;> rfl
theorem zero_off1 : (![0] : Fin 1 → Nat) = fun _ => 0 := funext fun a => by fin_cases a; rfl

/-- The six index maps over the five grid points: the node features, the means and the output move together, block
    row `t` at point `t`, block column 0; the three parameter arrays stay at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the node features' block at point `t` is row `t * 10000 + p` of the array. -/
theorem feat_blk (c : Dev nD) (t : Fin cfg0.N) (p : Fin 10000) (k : Fin 6) (r : Fin 50000) (hr : r.val = t.val * 10000 + p.val) :
    iblk0 V c 0 t (ix2 p k) = V c main_arg0 (ix2 r k) := by
  obtain ⟨e0, e1, -⟩ := block_indices t
  show V c main_arg0 (((cfg0.win 0).blk t).view.emb (ix2 p k)) = V c main_arg0 (ix2 r k)
  refine congrArg _ (funext fun a => Fin.ext ?_)
  match a with
  | ⟨0, _⟩ => show win0_0.index t (0 : Fin 2) * 10000 + 1 * p.val = r.val; omega
  | ⟨1, _⟩ => show win0_0.index t (1 : Fin 2) * 6 + 1 * k.val = k.val; omega

/-- Row `p` of the means' block at point `t` is row `t * 10000 + p` of the array. -/
theorem mean_blk (c : Dev nD) (t : Fin cfg0.N) (p : Fin 10000) (k : Fin 6) (r : Fin 50000) (hr : r.val = t.val * 10000 + p.val) :
    iblk0 V c 1 t (ix2 p k) = V c main_v22 (ix2 r k) := by
  obtain ⟨-, -, e0, e1, -⟩ := block_indices t
  show V c main_v22 (((cfg0.win 1).blk t).view.emb (ix2 p k)) = V c main_v22 (ix2 r k)
  refine congrArg _ (funext fun a => Fin.ext ?_)
  match a with
  | ⟨0, _⟩ => show win0_1.index t (0 : Fin 2) * 10000 + 1 * p.val = r.val; omega
  | ⟨1, _⟩ => show win0_1.index t (1 : Fin 2) * 6 + 1 * k.val = k.val; omega

/-- The block of `wl` at every point is `wl`. -/
theorem wl_blk (c : Dev nD) (t : Fin cfg0.N) (k : Fin 6) (q : Fin 64) :
    iblk0 V c 2 t (ix2 k q) = V c main_arg2 (ix2 k q) := by
  obtain ⟨-, -, -, -, e0, e1, -⟩ := block_indices t
  show V c main_arg2 (((cfg0.win 2).blk t).view.emb (ix2 k q)) = V c main_arg2 (ix2 k q)
  refine congrArg _ (funext fun a => Fin.ext ?_)
  match a with
  | ⟨0, _⟩ => show win0_2.index t (0 : Fin 2) * 6 + 1 * k.val = k.val; omega
  | ⟨1, _⟩ => show win0_2.index t (1 : Fin 2) * 64 + 1 * q.val = q.val; omega

/-- The block of the bias at every point is the bias. -/
theorem bias_blk (c : Dev nD) (t : Fin cfg0.N) (q : Fin 64) :
    iblk0 V c 3 t (ix1 q) = V c main_arg3 (ix1 q) := by
  obtain ⟨-, -, -, -, -, -, e0, -⟩ := block_indices t
  show V c main_arg3 (((cfg0.win 3).blk t).view.emb (ix1 q)) = V c main_arg3 (ix1 q)
  refine congrArg _ (funext fun a => Fin.ext ?_)
  match a with
  | ⟨0, _⟩ => show win0_3.index t (0 : Fin 1) * 64 + 1 * q.val = q.val; omega

/-- The block of `wr` at every point is `wr`. -/
theorem wr_blk (c : Dev nD) (t : Fin cfg0.N) (k : Fin 6) (q : Fin 64) :
    iblk0 V c 4 t (ix2 k q) = V c main_arg4 (ix2 k q) := by
  obtain ⟨-, -, -, -, -, -, -, e0, e1, -⟩ := block_indices t
  show V c main_arg4 (((cfg0.win 4).blk t).view.emb (ix2 k q)) = V c main_arg4 (ix2 k q)
  refine congrArg _ (funext fun a => Fin.ext ?_)
  match a with
  | ⟨0, _⟩ => show win0_4.index t (0 : Fin 2) * 6 + 1 * k.val = k.val; omega
  | ⟨1, _⟩ => show win0_4.index t (1 : Fin 2) * 64 + 1 * q.val = q.val; omega

/-- What point `t` writes back is layer 1 of the arrays as the region finds them, read through block `t` of the
    output: entry (p, q) of the body's result is layer 1 at row `t * 10000 + p`, column q. -/
theorem writeback_eq (c : Dev nD) (t : Fin cfg0.N) :
    (dat0 (F := Ideal) V c).flushed 5 t = ((cfg0.win 5).blk t).view.read (Elt Ideal)
      (Cert.Sage.layer1 (V c main_arg0) (V c main_v22) (V c main_arg2) (V c main_arg3) (V c main_arg4)) := by
  show (cfg0.win 5).cut (grid0.coords t) ((dat0 V c).after 5 t) = _
  rw [after0_5]
  unfold out0_5
  rw [View.canon_unit_zero zero_off2]
  simp only [View.ld_unit_zero (S := S10000x6) zero_off2, View.ld_unit_zero (S := S6x64) zero_off2, View.ld_unit_zero (S := S64) zero_off1]
  obtain ⟨-, -, -, -, -, -, -, -, -, e0, e1⟩ := block_indices t
  have hN : t.val < 5 := t.isLt
  funext j
  have hj0 : (j 0).val < 10000 := (j 0).isLt
  have hj1 : (j 1).val < 64 := (j 1).isLt
  have hin : (cfg0.win 5).xinj (grid0.coords t) j = ix2 (⟨(j 0).val, hj0⟩ : Fin 10000) (⟨(j 1).val, hj1⟩ : Fin 64) :=
    funext fun a => by match a with | ⟨0, _⟩ => rfl | ⟨1, _⟩ => rfl
  have hout : ((cfg0.win 5).blk t).view.emb j
      = ix2 (⟨t.val * 10000 + (j 0).val, by omega⟩ : Fin 50000) (⟨(j 1).val, hj1⟩ : Fin 64) :=
    funext fun a => Fin.ext (by
      match a with
      | ⟨0, _⟩ => show win0_5.index t (0 : Fin 2) * 10000 + 1 * (j 0).val = t.val * 10000 + (j 0).val; omega
      | ⟨1, _⟩ => show win0_5.index t (1 : Fin 2) * 64 + 1 * (j 1).val = (j 1).val; omega)
  show k0_pay1 (iblk0 V c 0 t) (iblk0 V c 1 t) (iblk0 V c 2 t) (iblk0 V c 4 t) (iblk0 V c 3 t) ((cfg0.win 5).xinj (grid0.coords t) j)
    = Cert.Sage.layer1 (V c main_arg0) (V c main_v22) (V c main_arg2) (V c main_arg3) (V c main_arg4) (((cfg0.win 5).blk t).view.emb j)
  rw [hin, hout]
  exact body_eq_layer1 (V c main_arg0) (V c main_v22) (V c main_arg2) (V c main_arg3) (V c main_arg4)
    (iblk0 V c 0 t) (iblk0 V c 1 t) (iblk0 V c 2 t) (iblk0 V c 3 t) (iblk0 V c 4 t) _ _ _
    (fun k => feat_blk V c t _ k _ rfl) (fun k => mean_blk V c t _ k _ rfl) (fun k => wl_blk V c t k _)
    (bias_blk V c t _) (fun k => wr_blk V c t k _)

/-- An index of the output array lies in point `t`'s block iff, on each axis, its coordinate lies in the block's
    range there. -/
theorem mem_out_blk (t : Fin cfg0.N) (i : S50000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v23).slice (win0_5.rect t)).set ↔ _
  rw [View.set_slice_whole, Rect.mem_set_unit]
  exact Iff.rfl

/-- Every index of the output array is in some point's block: row `r` is written by point `r / 10000`. -/
theorem rows_covered (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ : ∃ t : Fin cfg0.N, t.val = (i 0).val / 10000 :=
    ⟨⟨(i 0).val / 10000, by show (i 0).val / 10000 < grid0.N; rw [N_0]; omega⟩, rfl⟩
  obtain ⟨-, -, -, -, -, -, -, -, -, e0, e1⟩ := block_indices t
  refine ⟨t, flush0_5 t, ?_⟩
  rw [mem_out_blk]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 64 ≤ (i 1).val ∧ (i 1).val < win0_5.index t (1 : Fin 2) * 64 + 64
    omega

end Layer1

/-- The output array after the region's five points is layer 1 of the arrays as the region finds them. -/
theorem region0_final (c : Dev nD) :
    (dat0 (F := Ideal) V c).arrAt 5 cfg0.N
      = Cert.Sage.layer1 (V c main_arg0) (V c main_v22) (V c main_arg2) (V c main_arg3) (V c main_arg4) :=
  (dat0 (F := Ideal) V c).arrAt_eq_of_cover 5 _ (fun t _ => Layer1.writeback_eq V c t) Layer1.rows_covered

end Cert.Sage.KernelBlocks
end
-- ==== Proof.Region1.lean ====
/-
  The second layer's region, from its five row blocks to the whole array.

  The region walks the 50000 nodes in five blocks of 10000 rows.  At block `t` its body holds rows
  `t * 10000 … t * 10000 + 9999` of the first layer's output and of its neighbourhood means, and the two 64 × 64 weight
  matrices and the bias row whole; it multiplies the means' block by `wl` and the features' block by `wr` (each product
  accumulated into zero), adds the bias row to the first product, and adds the second product; there is no
  activation.  On the extended reals the narrowing casts in front of the products are the identity, so entry (p, q)
  of the body's result is

      ((∑ₖ mean[r, k] · wl[k, q]) + b[q]) + ∑ₖ z[r, k] · wr[k, q],      r = t * 10000 + p,

  which is layer 2's entry (r, q) term for term.  Block `t` of the output is written at rows `t * 10000 + p`, and every
  row `r` lies in block `r / 10000`, so after the five points the output array is layer 2 of the arrays the region
  found.
-/
import proofs.«143946_j26431228739933_1_alg».proof.Proof.Gen.KernelIdeal.Frame
import proofs.«143946_j26431228739933_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.Sage.KernelBlocks
open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

namespace Layer2

/-! ## The block product at an entry

The body multiplies a [10000,64] block by a [64,64] matrix, the left operand's axis 1 contracted against the right
operand's axis 0.  The four facts below read the two operand indices of output entry `i` at contraction position
`q`, coordinate by coordinate; the lemma after them re-indexes the contraction by `Fin 64`. -/

theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product of a [10000,64] block and a [64,64] matrix, accumulated into zero, at entry (p, q): row p of the
    left operand against column q of the right, summed over the sixty-four shared positions. -/
theorem prod_apply (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The body's arithmetic at an entry -/

/-- What the body computes from its five loaded blocks, at entry (p, q) of the [10000,64] block: the means' row
    against `wl`, plus the bias at q, plus the node's own row against `wr`.  The narrowing casts are the identity on
    the extended reals, the bias row is read at q whatever the row, and both products accumulate into zero. -/
theorem pay_apply (v0 v3 : Vec Ideal S10000x64 .f32) (v6 v8 : Vec Ideal S64x64 .f32) (v11 : Vec Ideal S64 .f32) (p : Fin 10000) (q : Fin 64) :
    k1_pay1 (F := Ideal) v0 v3 v6 v8 v11 (ix2 p q)
      = ((∑ k : Fin 64, v3 (ix2 p k) * v6 (ix2 k q)) + v11 (ix1 q)) + ∑ k : Fin 64, v0 (ix2 p k) * v8 (ix2 k q) := by
  unfold k1_pay1
  refine congrArg₂ (· + ·) (congrArg₂ (· + ·) ?_ ?_) ?_
  · refine (prod_apply _ _ p q).trans ?_
    rw [shapeCast_self]
    rfl
  · refine (broadcastTo_1b_ab_apply _ broadcasts_S1x64_S10000x64 p q).trans ?_
    exact shapeCast_a_1a_apply v11 shapeCasts_S64_S1x64 0 q
  · refine (prod_apply _ _ p q).trans ?_
    rw [shapeCast_self]
    rfl

/-- The body's result against layer 2: when the two row blocks hold, at their row `p`, row `r` of the features and of
    the means, and the three parameter blocks hold the parameters, the body's entry (p, q) is layer 2's entry
    (r, q) — the same three terms added in the same order. -/
theorem body_eq_layer2 (Z M : FVec Ideal ⟨2, ![50000, 64]⟩ .f32) (Wl : FVec Ideal ⟨2, ![64, 64]⟩ .f32) (B : FVec Ideal ⟨1, ![64]⟩ .f32)
    (Wr : FVec Ideal ⟨2, ![64, 64]⟩ .f32)
    (x0 x1 : Vec Ideal S10000x64 .f32) (x2 : Vec Ideal S64x64 .f32) (x3 : Vec Ideal S64 .f32) (x4 : Vec Ideal S64x64 .f32)
    (p : Fin 10000) (q : Fin 64) (r : Fin 50000)
    (h0 : ∀ k : Fin 64, x0 (ix2 p k) = Z (ix2 r k))
    (h1 : ∀ k : Fin 64, x1 (ix2 p k) = M (ix2 r k))
    (h2 : ∀ k : Fin 64, x2 (ix2 k q) = Wl (ix2 k q))
    (h3 : x3 (ix1 q) = B (ix1 q))
    (h4 : ∀ k : Fin 64, x4 (ix2 k q) = Wr (ix2 k q)) :
    k1_pay1 (F := Ideal) x0 x1 x2 x4 x3 (ix2 p q) = Cert.Sage.layer2 Z M Wl B Wr (ix2 r q) := by
  rw [pay_apply, Cert.Sage.layer2_ix2]
  unfold Cert.Sage.pre2
  simp only [h0, h1, h2, h3, h4]

/-! ## From blocks to the array -/

theorem zero_off2 : (![0, 0] : Fin 2 → Nat) = fun _ => 0 := funext fun a => by fin_cases a <;> rfl
theorem zero_off1 : (![0] : Fin 1 → Nat) = fun _ => 0 := funext fun a => by fin_cases a; rfl

/-- The six index maps over the five grid points: the features, the means and the output move together, block row
    `t` at point `t`, block column 0; the three parameter arrays stay at their one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the features' block at point `t` is row `t * 10000 + p` of the array. -/
theorem feat_blk (c : Dev nD) (t : Fin cfg1.N) (p : Fin 10000) (k : Fin 64) (r : Fin 50000) (hr : r.val = t.val * 10000 + p.val) :
    iblk1 V c 0 t (ix2 p k) = V c main_v23 (ix2 r k) := by
  obtain ⟨e0, e1, -⟩ := block_indices t
  show V c main_v23 (((cfg1.win 0).blk t).view.emb (ix2 p k)) = V c main_v23 (ix2 r k)
  refine congrArg _ (funext fun a => Fin.ext ?_)
  match a with
  | ⟨0, _⟩ => show win1_0.index t (0 : Fin 2) * 10000 + 1 * p.val = r.val; omega
  | ⟨1, _⟩ => show win1_0.index t (1 : Fin 2) * 64 + 1 * k.val = k.val; omega

/-- Row `p` of the means' block at point `t` is row `t * 10000 + p` of the array. -/
theorem mean_blk (c : Dev nD) (t : Fin cfg1.N) (p : Fin 10000) (k : Fin 64) (r : Fin 50000) (hr : r.val = t.val * 10000 + p.val) :
    iblk1 V c 1 t (ix2 p k) = V c main_v42 (ix2 r k) := by
  obtain ⟨-, -, e0, e1, -⟩ := block_indices t
  show V c main_v42 (((cfg1.win 1).blk t).view.emb (ix2 p k)) = V c main_v42 (ix2 r k)
  refine congrArg _ (funext fun a => Fin.ext ?_)
  match a with
  | ⟨0, _⟩ => show win1_1.index t (0 : Fin 2) * 10000 + 1 * p.val = r.val; omega
  | ⟨1, _⟩ => show win1_1.index t (1 : Fin 2) * 64 + 1 * k.val = k.val; omega

/-- The block of `wl` at every point is `wl`. -/
theorem wl_blk (c : Dev nD) (t : Fin cfg1.N) (k : Fin 64) (q : Fin 64) :
    iblk1 V c 2 t (ix2 k q) = V c main_arg5 (ix2 k q) := by
  obtain ⟨-, -, -, -, e0, e1, -⟩ := block_indices t
  show V c main_arg5 (((cfg1.win 2).blk t).view.emb (ix2 k q)) = V c main_arg5 (ix2 k q)
  refine congrArg _ (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- The block of the bias at every point is the bias. -/
theorem bias_blk (c : Dev nD) (t : Fin cfg1.N) (q : Fin 64) :
    iblk1 V c 3 t (ix1 q) = V c main_arg6 (ix1 q) := by
  obtain ⟨-, -, -, -, -, -, e0, -⟩ := block_indices t
  show V c main_arg6 (((cfg1.win 3).blk t).view.emb (ix1 q)) = V c main_arg6 (ix1 q)
  refine congrArg _ (funext fun a => Fin.ext ?_)
  match a with
  | ⟨0, _⟩ => show win1_3.index t (0 : Fin 1) * 64 + 1 * q.val = q.val; omega

/-- The block of `wr` at every point is `wr`. -/
theorem wr_blk (c : Dev nD) (t : Fin cfg1.N) (k : Fin 64) (q : Fin 64) :
    iblk1 V c 4 t (ix2 k q) = V c main_arg7 (ix2 k q) := by
  obtain ⟨-, -, -, -, -, -, -, e0, e1, -⟩ := block_indices t
  show V c main_arg7 (((cfg1.win 4).blk t).view.emb (ix2 k q)) = V c main_arg7 (ix2 k q)
  refine congrArg _ (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

/-- What point `t` writes back is layer 2 of the arrays as the region finds them, read through block `t` of the
    output: entry (p, q) of the body's result is layer 2 at row `t * 10000 + p`, column q. -/
theorem writeback_eq (c : Dev nD) (t : Fin cfg1.N) :
    (dat1 (F := Ideal) V c).flushed 5 t = ((cfg1.win 5).blk t).view.read (Elt Ideal)
      (Cert.Sage.layer2 (V c main_v23) (V c main_v42) (V c main_arg5) (V c main_arg6) (V c main_arg7)) := by
  show (cfg1.win 5).cut (grid1.coords t) ((dat1 V c).after 5 t) = _
  rw [after1_5]
  unfold out1_5
  rw [View.canon_unit_zero zero_off2]
  simp only [View.ld_unit_zero (S := S10000x64) zero_off2, View.ld_unit_zero (S := S64x64) zero_off2, View.ld_unit_zero (S := S64) zero_off1]
  obtain ⟨-, -, -, -, -, -, -, -, -, e0, e1⟩ := block_indices t
  have hN : t.val < 5 := t.isLt
  funext j
  have hj0 : (j 0).val < 10000 := (j 0).isLt
  have hj1 : (j 1).val < 64 := (j 1).isLt
  have hin : (cfg1.win 5).xinj (grid1.coords t) j = ix2 (⟨(j 0).val, hj0⟩ : Fin 10000) (⟨(j 1).val, hj1⟩ : Fin 64) :=
    funext fun a => by match a with | ⟨0, _⟩ => rfl | ⟨1, _⟩ => rfl
  have hout : ((cfg1.win 5).blk t).view.emb j
      = ix2 (⟨t.val * 10000 + (j 0).val, by omega⟩ : Fin 50000) (⟨(j 1).val, hj1⟩ : Fin 64) :=
    funext fun a => Fin.ext (by
      match a with
      | ⟨0, _⟩ => show win1_5.index t (0 : Fin 2) * 10000 + 1 * (j 0).val = t.val * 10000 + (j 0).val; omega
      | ⟨1, _⟩ => show win1_5.index t (1 : Fin 2) * 64 + 1 * (j 1).val = (j 1).val; omega)
  show k1_pay1 (iblk1 V c 0 t) (iblk1 V c 1 t) (iblk1 V c 2 t) (iblk1 V c 4 t) (iblk1 V c 3 t) ((cfg1.win 5).xinj (grid1.coords t) j)
    = Cert.Sage.layer2 (V c main_v23) (V c main_v42) (V c main_arg5) (V c main_arg6) (V c main_arg7) (((cfg1.win 5).blk t).view.emb j)
  rw [hin, hout]
  exact body_eq_layer2 (V c main_v23) (V c main_v42) (V c main_arg5) (V c main_arg6) (V c main_arg7)
    (iblk1 V c 0 t) (iblk1 V c 1 t) (iblk1 V c 2 t) (iblk1 V c 3 t) (iblk1 V c 4 t) _ _ _
    (fun k => feat_blk V c t _ k _ rfl) (fun k => mean_blk V c t _ k _ rfl) (fun k => wl_blk V c t k _)
    (bias_blk V c t _) (fun k => wr_blk V c t k _)

/-- An index of the output array lies in point `t`'s block iff, on each axis, its coordinate lies in the block's
    range there. -/
theorem mem_out_blk (t : Fin cfg1.N) (i : S50000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v43).slice (win1_5.rect t)).set ↔ _
  rw [View.set_slice_whole, Rect.mem_set_unit]
  exact Iff.rfl

/-- Every index of the output array is in some point's block: row `r` is written by point `r / 10000`. -/
theorem rows_covered (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 10000 :=
    ⟨⟨(i 0).val / 10000, by show (i 0).val / 10000 < grid1.N; rw [N_1]; omega⟩, rfl⟩
  obtain ⟨-, -, -, -, -, -, -, -, -, e0, e1⟩ := block_indices t
  refine ⟨t, flush1_5 t, ?_⟩
  rw [mem_out_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

end Layer2

/-- The output array after the region's five points is layer 2 of the arrays as the region finds them. -/
theorem region1_final (c : Dev nD) :
    (dat1 (F := Ideal) V c).arrAt 5 cfg1.N
      = Cert.Sage.layer2 (V c main_v23) (V c main_v42) (V c main_arg5) (V c main_arg6) (V c main_arg7) :=
  (dat1 (F := Ideal) V c).arrAt_eq_of_cover 5 _ (fun t _ => Layer2.writeback_eq V c t) Layer2.rows_covered

end Cert.Sage.KernelBlocks
end
-- ==== Proof.RefValue.lean ====
/-
  The reference program's two GraphSAGE layers, read entry by entry.

  Layer 1.  The reference forms the neighbourhood mean of the input features (kept here as one opaque array
  `mean₁`), multiplies it by `wl` (a contraction over the six input features), adds the bias row — the row
  `b` first copied to a `1 × 64` array and then to every one of the 50000 node rows, so entry `(r, j)` of the
  copy is `b[j]` —, adds the node's own features multiplied by `wr`, and takes the maximum with the constant
  whose word is zero.  At the extended reals a contraction is the plain finite sum of products, the float
  addition is `+` and the float maximum is `max`, so entry `(r, j)` is

      max (((∑ₖ mean₁[r, k] · wl[k, j]) + b[j]) + ∑ₖ x[r, k] · wr[k, j]) 0,

  the three terms added in the same order as in the layer's entrywise description: the two sides are the same
  expression once each composed index function is identified with the pair of coordinates it stands for.

  Layer 2.  The same three terms over sixty-four input features, with the first layer's output `z` in the
  place of the input features and its neighbourhood mean `mean₂` (again opaque) in the place of `mean₁`; there
  is no maximum.  Both `z` and `mean₂` stay closed symbols: only the dense part of the layer is read.

  `agg2` names the second mean as a function of an arbitrary feature array, and `v48_eq` says the reference's
  second mean is `agg2` of its first layer's output.
-/
import proofs.«143946_j26431228739933_1_alg».proof.Proof.Gen.ReferenceIdeal.Read
import proofs.«143946_j26431228739933_1_alg».proof.Proof.Spec
import Idealize.ShloMosaic.Lib.ValueIdx
import Idealize.ShloMosaic.Lib.Pipeline.Value
import Idealize.ShloMosaic.PureOps.Ideal.Laws

noncomputable section
namespace Cert.Sage.RefValue
open Idealize.ShloMosaic Idealize.ShloMosaic.TcCoe Idealize.SL.Sem Cert.ReferenceIdeal Cert.ReferenceIdeal.Gen Cert.ReferenceIdeal.Read

/-- The second layer's neighbourhood mean as the reference computes it, of ANY node features `z` and the edge list. -/
def agg2 (z : FVec Ideal S50000x64 .f32) (e : (⟨S2x1600000, .i32⟩ : BufTy).Contents (Elt Ideal)) : FVec Ideal S50000x64 .f32 :=
  Host.divf (F := Ideal) (Host.scatterAdd (F := Ideal) scatter_S50000x64_S1600000x1_S1600000x64_1_0_0_1 (val_main_v37 (F := Ideal)) (val_main_v38 (F := Ideal) e)
    (Host.gather gather_S50000x64_S1600000x1_S1600000x64_1_0_n_n_0_1_164 z (val_main_v35 (F := Ideal) e))) (val_main_v47 (F := Ideal) e)

theorem v48_eq (x0 : FVec Ideal S50000x6 .f32) (x1 : (⟨S2x1600000, .i32⟩ : BufTy).Contents (Elt Ideal)) (x2 : FVec Ideal S6x64 .f32) (x3 : FVec Ideal S64 .f32) (x4 : FVec Ideal S6x64 .f32) :
    val_main_v48 (F := Ideal) x0 x1 x2 x3 x4 = agg2 (val_main_v29 (F := Ideal) x0 x1 x2 x3 x4) x1 := by
  unfold val_main_v48 val_main_v39 val_main_v36 agg2; rfl

theorem ref_layer1 (x0 : FVec Ideal S50000x6 .f32) (x1 : (⟨S2x1600000, .i32⟩ : BufTy).Contents (Elt Ideal)) (x2 : FVec Ideal S6x64 .f32) (x3 : FVec Ideal S64 .f32) (x4 : FVec Ideal S6x64 .f32) :
    val_main_v29 (F := Ideal) x0 x1 x2 x3 x4 = Cert.Sage.layer1 x0 (val_main_v22 (F := Ideal) x0 x1) x2 x3 x4 := by
  funext i
  obtain ⟨r, j, rfl⟩ : ∃ (r : Fin 50000) (j : Fin 64), i = ValueIdx.ix2 r j := ⟨i 0, i 1, ValueIdx.eq_ix2 i⟩
  have hl (k : Fin 6) : lidx_main_v23 (ValueIdx.ix2 r j) k = ValueIdx.ix2 r k :=
    funext fun a => by match a with | ⟨0, _⟩ => rfl | ⟨1, _⟩ => rfl
  have hr (k : Fin 6) : ridx_main_v23 (ValueIdx.ix2 r j) k = ValueIdx.ix2 k j :=
    funext fun a => by match a with | ⟨0, _⟩ => rfl | ⟨1, _⟩ => rfl
  have hl' (k : Fin 6) : lidx_main_v27 (ValueIdx.ix2 r j) k = ValueIdx.ix2 r k :=
    funext fun a => by match a with | ⟨0, _⟩ => rfl | ⟨1, _⟩ => rfl
  have hr' (k : Fin 6) : ridx_main_v27 (ValueIdx.ix2 r j) k = ValueIdx.ix2 k j :=
    funext fun a => by match a with | ⟨0, _⟩ => rfl | ⟨1, _⟩ => rfl
  have hb : idx_main_v24 (idx_main_v25 (ValueIdx.ix2 r j)) = ValueIdx.ix1 j :=
    funext fun a => by match a with | ⟨0, _⟩ => rfl
  rw [Cert.Sage.layer1_ix2, val_main_v29_apply, val_main_v28_apply, val_main_v26_apply, val_main_v23_apply,
    val_main_v25_apply, val_main_v24_apply, val_main_v27_apply, val_main_call0_v0_apply, val_main_call0_cst_apply]
  simp only [hl, hr, hl', hr', hb]
  rfl

theorem ref_layer2 (x0 : FVec Ideal S50000x6 .f32) (x1 : (⟨S2x1600000, .i32⟩ : BufTy).Contents (Elt Ideal)) (x2 : FVec Ideal S6x64 .f32) (x3 : FVec Ideal S64 .f32) (x4 : FVec Ideal S6x64 .f32)
    (x5 : FVec Ideal S64x64 .f32) (x6 : FVec Ideal S64 .f32) (x7 : FVec Ideal S64x64 .f32) :
    val_main_v54 (F := Ideal) x0 x1 x2 x3 x4 x5 x6 x7
      = Cert.Sage.layer2 (val_main_v29 (F := Ideal) x0 x1 x2 x3 x4) (val_main_v48 (F := Ideal) x0 x1 x2 x3 x4) x5 x6 x7 := by
  funext i
  obtain ⟨r, j, rfl⟩ : ∃ (r : Fin 50000) (j : Fin 64), i = ValueIdx.ix2 r j := ⟨i 0, i 1, ValueIdx.eq_ix2 i⟩
  have hl (k : Fin 64) : lidx_main_v49 (ValueIdx.ix2 r j) k = ValueIdx.ix2 r k :=
    funext fun a => by match a with | ⟨0, _⟩ => rfl | ⟨1, _⟩ => rfl
  have hr (k : Fin 64) : ridx_main_v49 (ValueIdx.ix2 r j) k = ValueIdx.ix2 k j :=
    funext fun a => by match a with | ⟨0, _⟩ => rfl | ⟨1, _⟩ => rfl
  have hl' (k : Fin 64) : lidx_main_v53 (ValueIdx.ix2 r j) k = ValueIdx.ix2 r k :=
    funext fun a => by match a with | ⟨0, _⟩ => rfl | ⟨1, _⟩ => rfl
  have hr' (k : Fin 64) : ridx_main_v53 (ValueIdx.ix2 r j) k = ValueIdx.ix2 k j :=
    funext fun a => by match a with | ⟨0, _⟩ => rfl | ⟨1, _⟩ => rfl
  have hb : idx_main_v50 (idx_main_v51 (ValueIdx.ix2 r j)) = ValueIdx.ix1 j :=
    funext fun a => by match a with | ⟨0, _⟩ => rfl
  rw [Cert.Sage.layer2_ix2, val_main_v54_apply, val_main_v52_apply, val_main_v49_apply,
    val_main_v51_apply, val_main_v50_apply, val_main_v53_apply]
  simp only [hl, hr, hl', hr', hb]
  rfl

end Cert.Sage.RefValue
end
-- ==== Proof.lean ====
/-
  A two-layer GraphSAGE network (mean aggregation, a maximum with zero between the layers) on 50000 nodes and
  1.6 million edges: a program whose two dense layers are grids of five row blocks each, with the irregular
  neighbourhood means computed by host operations before and between them, against a reference that is host
  operations only.

  Both programs compute, per layer, for node `r` and output feature `j`,

      ((∑ₖ mean[r, k] · Wˡ[k, j]) + b[j]) + ∑ₖ z[r, k] · Wʳ[k, j],

  the first layer followed by the maximum with zero, where `mean` is the mean of `z`'s rows over the node's incoming
  edges.  At the extended reals a change of float format is the identity, so the grid program's narrowing of its
  matrix operands vanishes, and a matrix product — the grid's into a zero accumulator, the reference's without one —
  is the plain finite sum of products.  The three terms are added in the same order on both sides, and the
  neighbourhood means are the SAME host operations on both sides, carried as one function of their operands.  So the
  two results are one function of the arguments, entry by entry; no term is distributed, cancelled or moved across a
  sum, and the claim holds at every extended real: finiteness of the inputs is not used.

  The grid program's result is read off its run (the contents of the last boundary between its four segments,
  walked back to the launch memory: KernelRun, KernelHost, KernelValue), each layer's array from its five blocks
  (Region0, Region1); the reference's result off its run, one operation at a time (RefValue).  The three frame
  claims are the programs' runs with the results dropped; the idealization rewrote nothing, so there is nothing to
  preserve.
-/
import proofs.«143946_j26431228739933_1_alg».proof.Defs
import proofs.«143946_j26431228739933_1_alg».proof.Proof.Gen.Kernel
import proofs.«143946_j26431228739933_1_alg».proof.Proof.Gen.Kernel.Frame
import proofs.«143946_j26431228739933_1_alg».proof.Proof.Gen.KernelIdeal
import proofs.«143946_j26431228739933_1_alg».proof.Proof.Gen.KernelIdeal.Frame
import proofs.«143946_j26431228739933_1_alg».proof.Proof.Gen.ReferenceIdeal
import proofs.«143946_j26431228739933_1_alg».proof.Proof.Gen.ReferenceIdeal.Run
import proofs.«143946_j26431228739933_1_alg».proof.Proof.Gen.ReferenceIdeal.Read
import proofs.«143946_j26431228739933_1_alg».proof.Proof.Gen.Pre_finite_inputs
import proofs.«143946_j26431228739933_1_alg».proof.Proof.Spec
import proofs.«143946_j26431228739933_1_alg».proof.Proof.KernelRun
import proofs.«143946_j26431228739933_1_alg».proof.Proof.KernelHost
import proofs.«143946_j26431228739933_1_alg».proof.Proof.KernelValue
import proofs.«143946_j26431228739933_1_alg».proof.Proof.Region0
import proofs.«143946_j26431228739933_1_alg».proof.Proof.Region1
import proofs.«143946_j26431228739933_1_alg».proof.Proof.RefValue
import Idealize.ShloMosaic.Adequacy
import Idealize.ShloMosaic.Init

noncomputable section

namespace Cert.Proof

open Idealize.ShloMosaic Idealize.ShloMosaic.TcCoe Idealize.SL.Sem

/-- The three frames: each program's run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result, read one operation at a time: the second layer of the first layer's output and its
    neighbourhood mean — the same function `Cert.Sage.KernelValue.out` states for the grid program, of the
    reference's own launch memory. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v54 (F := Ideal) m' c
      = Cert.Sage.layer2
          (Cert.Sage.layer1 (m' ((c.tc : Thread Cert.ReferenceIdeal.nD Cert.ReferenceIdeal.τ).loc Cert.ReferenceIdeal.main_arg0))
            (Cert.ReferenceIdeal.Read.val_main_v22 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4)))
          (Cert.Sage.Host.mean2
            (Cert.Sage.layer1 (m' ((c.tc : Thread Cert.ReferenceIdeal.nD Cert.ReferenceIdeal.τ).loc Cert.ReferenceIdeal.main_arg0))
              (Cert.ReferenceIdeal.Read.val_main_v22 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4)))
            (Cert.ReferenceIdeal.Read.val_main_v1 (F := Ideal) (m' ((c.tc : Thread Cert.ReferenceIdeal.nD Cert.ReferenceIdeal.τ).loc Cert.ReferenceIdeal.main_arg1)))
            (Cert.ReferenceIdeal.Read.val_main_v3 (F := Ideal) (m' ((c.tc : Thread Cert.ReferenceIdeal.nD Cert.ReferenceIdeal.τ).loc Cert.ReferenceIdeal.main_arg1))))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) := by
  rw [Cert.ReferenceIdeal.Read.val_main_v54_eq, Cert.Sage.RefValue.ref_layer2, Cert.Sage.Host.v48_mean2, Cert.Sage.RefValue.ref_layer1]

/-- From memories agreeing on the arguments both idealized programs run and end with the same result array: the grid
    program's is `out` of its launch memory, the reference's the same function of its own, and the memories agree. -/
theorem algebraic : Cert.algebraic_KernelIdeal_ReferenceIdeal := by
  intro m ρ m' ρ' _ hagree
  refine ⟨fun c => Cert.Sage.KernelValue.out m c, ?_, ?_⟩
  · exact (θ_run Cert.KernelIdeal.defs _ _).mono
      (fun r h c => ⟨(h c).1.trans (Cert.Sage.KernelValue.result m ρ Cert.Sage.KernelBlocks.region0_final Cert.Sage.KernelBlocks.region1_final c), (h c).2⟩)
      (Cert.Sage.KernelRun.run_named (F := Ideal) m ρ)
  · refine (θ_run Cert.ReferenceIdeal.defs _ _).mono (fun _ h c => ⟨(h c).1.trans ?_, (h c).2⟩)
      (Cert.ReferenceIdeal.Value.run (F := Ideal) m' ρ')
    rw [reference_result m' c, (hagree c).1, (hagree c).2.1, (hagree c).2.2.1, (hagree c).2.2.2.1, (hagree c).2.2.2.2.1,
      (hagree c).2.2.2.2.2.1, (hagree c).2.2.2.2.2.2.1, (hagree c).2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
